-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x32x16 : Shape := ⟨4, ![8, 64, 32, 16]⟩
abbrev S32x64 : Shape := ⟨2, ![32, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S_ : Shape := ⟨0, ![]⟩

class Facts : Prop where
  bcast_S_S8x64x32x16 : S_.BroadcastsInDim S8x64x32x16 (![] : Fin 0 → Fin S8x64x32x16.rank)
  reducesTo_S8x64x32x16_S_d0_1_2_3 : S8x64x32x16.ReducesTo [0, 1, 2, 3] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S64 .f32) (main_arg5 : FVec F S64x8 .f32) (main_arg6 : FVec F S8 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x8 .f32 := Host.absf main_arg5
  let main_cst_8 : FVec F S_ .f32 := constant S_ .f32 0x7F800000#32
  let main_v25 : FVec F S64x8 .f32 := broadcastInDim S64x8 ![] bcast_S_S64x8 main_cst_8
  let main_v26 : IVec S64x8 1 := cmpf .olt main_v24 main_v25
  let main_c_9 : IVec S_ 1 := constantI S_ 1 1#1
  let main_v27 : IVec S_ 1 := (fun x v => Host.reduce IntOp.andi x v reducesTo_S64x8_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S8x64x32x16 .f32) (main_arg1 : FVec F S32x64 .f32) (main_arg2 : FVec F S64 .f32) (main_arg3 : FVec F S64x64 .f32) (main_arg4 : FVec F S64 .f32) (main_arg5 : FVec F S64x8 .f32) (main_arg6 : FVec F S8 .f32) : IVec S_ 1 :=
  let main_v0 : FVec F S8x64x32x16 .f32 := Host.absf main_arg0
  let main_cst : FVec F S_ .f32 := constant S_ .f32 0x7F800000#32
  let main_v1 : FVec F S8x64x32x16 .f32 := broadcastInDim S8x64x32x16 ![] bcast_S_S8x64x32x16 main_cst
  let main_v2 : IVec S8x64x32x16 1 := cmpf .olt main_v0 main_v1
  let main_c : IVec S_ 1 := constantI S_ 1 1#1
  let main_v3 : IVec S_ 1 := (fun x v => Host.reduce IntOp.andi x v reducesTo_S8x64x32x16_S_d0_1_2_3 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S8x64x32x16 : Shape := ⟨4, ![8, 64, 32, 16]⟩
abbrev S32x64 : Shape := ⟨2, ![32, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S512x32x16 : Shape := ⟨3, ![512, 32, 16]⟩
abbrev S16x64 : Shape := ⟨2, ![16, 64]⟩
abbrev S512x32x256 : Shape := ⟨3, ![512, 32, 256]⟩
abbrev S16x32x16 : Shape := ⟨3, ![16, 32, 16]⟩
abbrev S16x32x256 : Shape := ⟨3, ![16, 32, 256]⟩
abbrev S512x16 : Shape := ⟨2, ![512, 16]⟩
abbrev S512x64 : Shape := ⟨2, ![512, 64]⟩
abbrev S16x32x64 : Shape := ⟨3, ![16, 32, 64]⟩
abbrev S16x32x1x64 : Shape := ⟨4, ![16, 32, 1, 64]⟩
abbrev S16x1x32x64 : Shape := ⟨4, ![16, 1, 32, 64]⟩
abbrev S16x32x32x64 : Shape := ⟨4, ![16, 32, 32, 64]⟩
abbrev S1x1x1x64 : Shape := ⟨4, ![1, 1, 1, 64]⟩
abbrev S16384x64 : Shape := ⟨2, ![16384, 64]⟩
abbrev S1x64 : Shape := ⟨2, ![1, 64]⟩
abbrev S16384x8 : Shape := ⟨2, ![16384, 8]⟩
abbrev S1x8 : Shape := ⟨2, ![1, 8]⟩
abbrev S16x32x32x8 : Shape := ⟨4, ![16, 32, 32, 8]⟩
abbrev S8x64x32x32x8 : Shape := ⟨5, ![8, 64, 32, 32, 8]⟩

abbrev nBuf : Space → Nat
  | .hbm => 12
  | .vmem => 11
  | .smem => 0
  | _ => 0

abbrev bufTy : (tb : Table) → Fin (tcTables nBuf tb) → BufTy
  | .hbm, ⟨0, _⟩ => ⟨S8x64x32x16, .f32⟩
  | .hbm, ⟨1, _⟩ => ⟨S32x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x8, .f32⟩
  | .hbm, ⟨6, _⟩ => ⟨S8, .f32⟩
  | .hbm, ⟨7, _⟩ => ⟨S512x32x16, .f32⟩
  | .hbm, ⟨8, _⟩ => ⟨S16x64, .f32⟩
  | .hbm, ⟨9, _⟩ => ⟨S16x64, .f32⟩
  | .hbm, ⟨10, _⟩ => ⟨S512x32x256, .f32⟩
  | .hbm, ⟨11, _⟩ => ⟨S8x64x32x32x8, .f32⟩
  | .local _ .vmem, ⟨0, _⟩ => ⟨S16x32x16, .f32⟩
  | .local _ .vmem, ⟨1, _⟩ => ⟨S16x32x16, .f32⟩
  | .local _ .vmem, ⟨2, _⟩ => ⟨S16x64, .f32⟩
  | .local _ .vmem, ⟨3, _⟩ => ⟨S16x64, .f32⟩
  | .local _ .vmem, ⟨4, _⟩ => ⟨S64, .f32⟩
  | .local _ .vmem, ⟨5, _⟩ => ⟨S64x64, .f32⟩
  | .local _ .vmem, ⟨6, _⟩ => ⟨S64, .f32⟩
  | .local _ .vmem, ⟨7, _⟩ => ⟨S64x8, .f32⟩
  | .local _ .vmem, ⟨8, _⟩ => ⟨S8, .f32⟩
  | .local _ .vmem, ⟨9, _⟩ => ⟨S16x32x256, .f32⟩
  | .local _ .vmem, ⟨10, _⟩ => ⟨S16x32x256, .f32⟩
  | _, _ => ⟨S8x64x32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x32x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S8x64x32x16_S512x32x16 : S8x64x32x16.ShapeCasts S512x32x16
  slices_S32x64_S16x64_0_0 : S32x64.Slices ![0, 0] S16x64
  slices_S32x64_S16x64_16_0 : S32x64.Slices ![16, 0] S16x64
  inb_S16x32x16_S16x32x16_0_0_0 : ∀ a, (![0, 0, 0] : Fin 3 → Nat) a + S16x32x16.size a ≤ S16x32x16.size a
  h_S16x32x16 : 0 < S16x32x16.numel
  shapeCasts_S16x32x16_S16x32x16 : S16x32x16.ShapeCasts S16x32x16
  shapeCasts_S16x32x16_S512x16 : S16x32x16.ShapeCasts S512x16
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  shapeCasts_S16x64_S16x64 : S16x64.ShapeCasts S16x64
  shapeCasts_S512x64_S16x32x64 : S512x64.ShapeCasts S16x32x64
  shapeCasts_S16x32x64_S16x32x1x64 : S16x32x64.ShapeCasts S16x32x1x64
  shapeCasts_S16x32x64_S16x1x32x64 : S16x32x64.ShapeCasts S16x1x32x64
  broadcasts_S16x32x1x64_S16x32x32x64 : S16x32x1x64.Broadcasts S16x32x32x64
  broadcasts_S16x1x32x64_S16x32x32x64 : S16x1x32x64.Broadcasts S16x32x32x64
  inb_S64_S64_0 : ∀ a, (![0] : Fin 1 → Nat) a + S64.size a ≤ S64.size a
  h_S64 : 0 < S64.numel
  shapeCasts_S64_S1x1x1x64 : S64.ShapeCasts S1x1x1x64
  broadcasts_S1x1x1x64_S16x32x32x64 : S1x1x1x64.Broadcasts S16x32x32x64
  shapeCasts_S16x32x32x64_S16384x64 : S16x32x32x64.ShapeCasts S16384x64
  inb_S64x64_S64x64_0_0 : ∀ a, (![0, 0] : Fin 2 → Nat) a + S64x64.size a ≤ S64x64.size a
  h_S64x64 : 0 < S64x64.numel
  shapeCasts_S64_S1x64 : S64.ShapeCasts S1x64
  broadcasts_S1x64_S16384x64 : S1x64.Broadcasts S16384x64
  inb_S64x8_S64x8_0_0 : ∀ a, (![0, 0] : Fin 2 → Nat) a + S64x8.size a ≤ S64x8.size a
  h_S64x8 : 0 < S64x8.numel
  inb_S8_S8_0 : ∀ a, (![0] : Fin 1 → Nat) a + S8.size a ≤ S8.size a
  h_S8 : 0 < S8.numel
  shapeCasts_S8_S1x8 : S8.ShapeCasts S1x8
  broadcasts_S1x8_S16384x8 : S1x8.Broadcasts S16384x8
  shapeCasts_S16384x8_S16x32x32x8 : S16384x8.ShapeCasts S16x32x32x8
  shapeCasts_S16x32x32x8_S16x32x256 : S16x32x32x8.ShapeCasts S16x32x256
  inb_S16x32x256_S16x32x256_0_0_0 : ∀ a, (![0, 0, 0] : Fin 3 → Nat) a + S16x32x256.size a ≤ S16x32x256.size a
  h_S16x32x256 : 0 < S16x32x256.numel
  shapeCasts_S512x32x256_S8x64x32x32x8 : S512x32x256.ShapeCasts S8x64x32x32x8
  dot_S512x16_S16x64_S512x64_1_0_0_1_n_n_wf : DotDims.WF S512x16 S16x64 S512x64 [1] [0] [0] [1] [] []
  dot_S16384x64_S64x64_S16384x64_1_0_0_1_n_n_wf : DotDims.WF S16384x64 S64x64 S16384x64 [1] [0] [0] [1] [] []
  dot_S16384x64_S64x8_S16384x8_1_0_0_1_n_n_wf : DotDims.WF S16384x64 S64x8 S16384x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x32x16.size a ≤ S512x32x16.size a
  hwx0_0 : ∀ i : grid0.Coords, EltTy.bits .f32 = 32 ∨ (Rect.block (s := S512x32x16) S16x32x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x8.size a ≤ S64x8.size a
  hwx0_6 : ∀ i : grid0.Coords, EltTy.bits .f32 = 32 ∨ (Rect.block (s := S64x8) S64x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8.size a ≤ S8.size a
  hwx0_7 : ∀ i : grid0.Coords, EltTy.bits .f32 = 32 ∨ (Rect.block (s := S8) S8.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x32x256.size a ≤ S512x32x256.size a
  hwx0_8 : ∀ i : grid0.Coords, EltTy.bits .f32 = 32 ∨ (Rect.block (s := S512x32x256) S16x32x256.size (cc0_transform_8 i) (hinb0_8 i)).WholeWords (EltTy.packing .f32)

variable [Facts₀]

def dot_S512x16_S16x64_S512x64_1_0_0_1_n_n : DotDims S512x16 S16x64 S512x64 where
  lhsContracting := [1]
  rhsContracting := [0]
  lhsNonContracting := [0]
  rhsNonContracting := [1]
  lhsBatch := []
  rhsBatch := []
  wf := dot_S512x16_S16x64_S512x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x8_S16384x8_1_0_0_1_n_n : DotDims S16384x64 S64x8 S16384x8 where
  lhsContracting := [1]
  rhsContracting := [0]
  lhsNonContracting := [0]
  rhsNonContracting := [1]
  lhsBatch := []
  rhsBatch := []
  wf := dot_S16384x64_S64x8_S16384x8_1_0_0_1_n_n_wf

abbrev win0_0 : Pipeline.Window sig grid0 :=
  Pipeline.Window.ofSpec (Memref.whole main_v0) S16x32x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S16x32x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x64x32x16 : Shape := ⟨4, ![8, 64, 32, 16]⟩
abbrev S32x64 : Shape := ⟨2, ![32, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S8x64x32x1x16 : Shape := ⟨5, ![8, 64, 32, 1, 16]⟩
abbrev S8x64x32x32x16 : Shape := ⟨5, ![8, 64, 32, 32, 16]⟩
abbrev S8x64x1x32x16 : Shape := ⟨5, ![8, 64, 1, 32, 16]⟩
abbrev S8x64x32x32x32 : Shape := ⟨5, ![8, 64, 32, 32, 32]⟩
abbrev S8x64x32x32x64 : Shape := ⟨5, ![8, 64, 32, 32, 64]⟩
abbrev S1x1x1x1x64 : Shape := ⟨5, ![1, 1, 1, 1, 64]⟩
abbrev S_ : Shape := ⟨0, ![]⟩
abbrev S8x64x32x32x8 : Shape := ⟨5, ![8, 64, 32, 32, 8]⟩
abbrev S1x1x1x1x8 : Shape := ⟨5, ![1, 1, 1, 1, 8]⟩

abbrev nBuf : Space → Nat
  | .hbm => 38
  | .vmem => 0
  | .smem => 0
  | _ => 0

abbrev bufTy : (tb : Table) → Fin (tcTables nBuf tb) → BufTy
  | .hbm, ⟨0, _⟩ => ⟨S8x64x32x16, .f32⟩
  | .hbm, ⟨1, _⟩ => ⟨S32x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x8, .f32⟩
  | .hbm, ⟨6, _⟩ => ⟨S8, .f32⟩
  | .hbm, ⟨7, _⟩ => ⟨S8x64x32x1x16, .f32⟩
  | .hbm, ⟨8, _⟩ => ⟨S8x64x32x32x16, .f32⟩
  | .hbm, ⟨9, _⟩ => ⟨S8x64x1x32x16, .f32⟩
  | .hbm, ⟨10, _⟩ => ⟨S8x64x32x32x16, .f32⟩
  | .hbm, ⟨11, _⟩ => ⟨S8x64x32x32x32, .f32⟩
  | .hbm, ⟨12, _⟩ => ⟨S8x64x32x32x64, .f32⟩
  | .hbm, ⟨13, _⟩ => ⟨S1x1x1x1x64, .f32⟩
  | .hbm, ⟨14, _⟩ => ⟨S8x64x32x32x64, .f32⟩
  | .hbm, ⟨15, _⟩ => ⟨S8x64x32x32x64, .f32⟩
  | .hbm, ⟨16, _⟩ => ⟨S_, .f32⟩
  | .hbm, ⟨17, _⟩ => ⟨S8x64x32x32x64, .f32⟩
  | .hbm, ⟨18, _⟩ => ⟨S8x64x32x32x64, .f32⟩
  | .hbm, ⟨19, _⟩ => ⟨S8x64x32x32x64, .f32⟩
  | .hbm, ⟨20, _⟩ => ⟨S1x1x1x1x64, .f32⟩
  | .hbm, ⟨21, _⟩ => ⟨S8x64x32x32x64, .f32⟩
  | .hbm, ⟨22, _⟩ => ⟨S8x64x32x32x64, .f32⟩
  | .hbm, ⟨23, _⟩ => ⟨S_, .f32⟩
  | .hbm, ⟨24, _⟩ => ⟨S8x64x32x32x64, .f32⟩
  | .hbm, ⟨25, _⟩ => ⟨S8x64x32x32x64, .f32⟩
  | .hbm, ⟨26, _⟩ => ⟨S8x64x32x32x8, .f32⟩
  | .hbm, ⟨27, _⟩ => ⟨S1x1x1x1x8, .f32⟩
  | .hbm, ⟨28, _⟩ => ⟨S8x64x32x32x8, .f32⟩
  | .hbm, ⟨29, _⟩ => ⟨S8x64x32x32x8, .f32⟩
  | .hbm, ⟨30, _⟩ => ⟨S8x64x32x32x8, .f32⟩
  | .hbm, ⟨31, _⟩ => ⟨S8x64x32x32x8, .f32⟩
  | .hbm, ⟨32, _⟩ => ⟨S_, .f32⟩
  | .hbm, ⟨33, _⟩ => ⟨S8x64x32x32x8, .f32⟩
  | .hbm, ⟨34, _⟩ => ⟨S8x64x32x32x8, .f32⟩
  | .hbm, ⟨35, _⟩ => ⟨S_, .f32⟩
  | .hbm, ⟨36, _⟩ => ⟨S8x64x32x32x8, .f32⟩
  | .hbm, ⟨37, _⟩ => ⟨S8x64x32x32x8, .f32⟩
  | _, _ => ⟨S8x64x32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_cst : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call1_cst : Ref sig .tc := ⟨.hbm, 23, rfl⟩
abbrev main_call1_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S8x64x32x16_S8x64x32x1x16_0_1_2_4 : S8x64x32x16.BroadcastsInDim S8x64x32x1x16 (![0, 1, 2, 4] : Fin 4 → Fin S8x64x32x1x16.rank)
  bcast_S8x64x32x1x16_S8x64x32x32x16_0_1_2_3_4 : S8x64x32x1x16.BroadcastsInDim S8x64x32x32x16 (![0, 1, 2, 3, 4] : Fin 5 → Fin S8x64x32x32x16.rank)
  bcast_S8x64x32x16_S8x64x1x32x16_0_1_3_4 : S8x64x32x16.BroadcastsInDim S8x64x1x32x16 (![0, 1, 3, 4] : Fin 4 → Fin S8x64x1x32x16.rank)
  bcast_S8x64x1x32x16_S8x64x32x32x16_0_1_2_3_4 : S8x64x1x32x16.BroadcastsInDim S8x64x32x32x16 (![0, 1, 2, 3, 4] : Fin 5 → Fin S8x64x32x32x16.rank)
  concatenates_S8x64x32x32x16_S8x64x32x32x16_S8x64x32x32x32_d4 : Shape.Concatenates [S8x64x32x32x16, S8x64x32x32x16] S8x64x32x32x32 4
  bcast_S64_S1x1x1x1x64_4 : S64.BroadcastsInDim S1x1x1x1x64 (![4] : Fin 1 → Fin S1x1x1x1x64.rank)
  bcast_S1x1x1x1x64_S8x64x32x32x64_0_1_2_3_4 : S1x1x1x1x64.BroadcastsInDim S8x64x32x32x64 (![0, 1, 2, 3, 4] : Fin 5 → Fin S8x64x32x32x64.rank)
  bcast_S_S8x64x32x32x64 : S_.BroadcastsInDim S8x64x32x32x64 (![] : Fin 0 → Fin S8x64x32x32x64.rank)
  bcast_S8_S1x1x1x1x8_4 : S8.BroadcastsInDim S1x1x1x1x8 (![4] : Fin 1 → Fin S1x1x1x1x8.rank)
  bcast_S1x1x1x1x8_S8x64x32x32x8_0_1_2_3_4 : S1x1x1x1x8.BroadcastsInDim S8x64x32x32x8 (![0, 1, 2, 3, 4] : Fin 5 → Fin S8x64x32x32x8.rank)
  bcast_S_S8x64x32x32x8 : S_.BroadcastsInDim S8x64x32x32x8 (![] : Fin 0 → Fin S8x64x32x32x8.rank)
  dot_S8x64x32x32x32_S32x64_S8x64x32x32x64_4_0_0123_1_n_n_wf : DotDims.WF S8x64x32x32x32 S32x64 S8x64x32x32x64 [4] [0] [0, 1, 2, 3] [1] [] []
  dot_S8x64x32x32x64_S64x64_S8x64x32x32x64_4_0_0123_1_n_n_wf : DotDims.WF S8x64x32x32x64 S64x64 S8x64x32x32x64 [4] [0] [0, 1, 2, 3] [1] [] []
  dot_S8x64x32x32x64_S64x8_S8x64x32x32x8_4_0_0123_1_n_n_wf : DotDims.WF S8x64x32x32x64 S64x8 S8x64x32x32x8 [4] [0] [0, 1, 2, 3] [1] [] []

variable [Facts₀]

def dot_S8x64x32x32x32_S32x64_S8x64x32x32x64_4_0_0123_1_n_n : DotDims S8x64x32x32x32 S32x64 S8x64x32x32x64 where
  lhsContracting := [4]
  rhsContracting := [0]
  lhsNonContracting := [0, 1, 2, 3]
  rhsNonContracting := [1]
  lhsBatch := []
  rhsBatch := []
  wf := dot_S8x64x32x32x32_S32x64_S8x64x32x32x64_4_0_0123_1_n_n_wf
def dot_S8x64x32x32x64_S64x64_S8x64x32x32x64_4_0_0123_1_n_n : DotDims S8x64x32x32x64 S64x64 S8x64x32x32x64 where
  lhsContracting := [4]
  rhsContracting := [0]
  lhsNonContracting := [0, 1, 2, 3]
  rhsNonContracting := [1]
  lhsBatch := []
  rhsBatch := []
  wf := dot_S8x64x32x32x64_S64x64_S8x64x32x32x64_4_0_0123_1_n_n_wf
def dot_S8x64x32x32x64_S64x8_S8x64x32x32x8_4_0_0123_1_n_n : DotDims S8x64x32x32x64 S64x8 S8x64x32x32x8 where
  lhsContracting := [4]
  rhsContracting := [0]
  lhsNonContracting := [0, 1, 2, 3]
  rhsNonContracting := [1]
  lhsBatch := []
  rhsBatch := []
  wf := dot_S8x64x32x32x64_S64x8_S8x64x32x32x8_4_0_0123_1_n_n_wf

class Facts : Prop extends Facts₀ where

variable [Facts]
-- ==== Proof.PairSpec.lean ====
/-
  The pairwise perceptron, as mathematics.

  An input array s[b,l,n,·] holds, for each of 8·64 scenes, 32 agents' 16 features. For every ordered pair (p, q) of
  agents of one scene the two feature rows are laid side by side, a 32-vector, and sent through a three-layer
  perceptron 32 → 64 → 64 → 8 with rectifiers after the first two layers and a logistic after the third.

  The first layer's product of the 32-vector with the 32×64 weight matrix is a sum over 32 positions; it splits into
  the sum over the first 16 positions (row p against the upper half of the matrix) plus the sum over the last 16
  (row q against the lower half). That split is associativity and commutativity of addition only, so it holds on the
  extended reals without any finiteness.
-/
import Idealize.ShloMosaic.PureOps.Ideal.Laws
import Idealize.ShloMosaic.Lib.ValueIdx

noncomputable section

namespace Cert.PairMlp

open Idealize.ShloMosaic Idealize.ShloMosaic.ValueIdx

/-- Position `d` of the first half of a 32-wide axis. -/
abbrev lo (d : Fin 16) : Fin 32 := ⟨d.val, by omega⟩
/-- Position `d` of the second half of a 32-wide axis. -/
abbrev hi (d : Fin 16) : Fin 32 := ⟨16 + d.val, by omega⟩

/-- A sum over 32 positions is the sum over the first 16 plus the sum over the last 16. -/
theorem sum_halves {M : Type} [AddCommMonoid M] (f : Fin 32 → M) :
    ∑ k : Fin 32, f k = (∑ d : Fin 16, f (lo d)) + ∑ d : Fin 16, f (hi d) :=
  Fin.sum_univ_add (a := 16) (b := 16) f

/-- The first hidden layer on the ordered pair of rows `(a, b)`, the weight matrix given as its upper half `Wa` and its
    lower half `Wb`: unit `j` is `max (a·Wa[·,j] + b·Wb[·,j] + c[j]) 0`. -/
def hidden1 (Wa Wb : Fin 16 → Fin 64 → EReal) (c : Fin 64 → EReal) (a b : Fin 16 → EReal) (j : Fin 64) : EReal :=
  max (((∑ d : Fin 16, a d * Wa d j) + ∑ d : Fin 16, b d * Wb d j) + c j) 0

/-- The second hidden layer: unit `k` is `max (h·W[·,k] + c[k]) 0`. -/
def hidden2 (W : Fin 64 → Fin 64 → EReal) (c : Fin 64 → EReal) (h : Fin 64 → EReal) (k : Fin 64) : EReal :=
  max ((∑ j : Fin 64, h j * W j k) + c k) 0

/-- The output layer: unit `o` is the logistic of `h·W[·,o] + c[o]`. -/
def score (W : Fin 64 → Fin 8 → EReal) (c : Fin 8 → EReal) (h : Fin 64 → EReal) (o : Fin 8) : EReal :=
  Ideal.logistic ((∑ k : Fin 64, h k * W k o) + c o)

/-- The whole perceptron on a pair of rows. -/
def pairMlp (Wa Wb : Fin 16 → Fin 64 → EReal) (c1 : Fin 64 → EReal) (W2 : Fin 64 → Fin 64 → EReal) (c2 : Fin 64 → EReal)
    (W3 : Fin 64 → Fin 8 → EReal) (c3 : Fin 8 → EReal) (a b : Fin 16 → EReal) (o : Fin 8) : EReal :=
  score W3 c3 (hidden2 W2 c2 (hidden1 Wa Wb c1 a b)) o

/-- The perceptron depends on its weights, biases and rows only through their entries. -/
theorem pairMlp_congr {Wa Wa' Wb Wb' : Fin 16 → Fin 64 → EReal} {c1 c1' : Fin 64 → EReal} {W2 W2' : Fin 64 → Fin 64 → EReal}
    {c2 c2' : Fin 64 → EReal} {W3 W3' : Fin 64 → Fin 8 → EReal} {c3 c3' : Fin 8 → EReal} {a a' b b' : Fin 16 → EReal} {o o' : Fin 8}
    (hWa : ∀ d j, Wa d j = Wa' d j) (hWb : ∀ d j, Wb d j = Wb' d j) (hc1 : ∀ j, c1 j = c1' j) (hW2 : ∀ j k, W2 j k = W2' j k)
    (hc2 : ∀ k, c2 k = c2' k) (hW3 : ∀ k o, W3 k o = W3' k o) (hc3 : ∀ o, c3 o = c3' o) (ha : ∀ d, a d = a' d)
    (hb : ∀ d, b d = b' d) (ho : o = o') :
    pairMlp Wa Wb c1 W2 c2 W3 c3 a b o = pairMlp Wa' Wb' c1' W2' c2' W3' c3' a' b' o' := by
  obtain rfl : Wa = Wa' := funext fun d => funext fun j => hWa d j
  obtain rfl : Wb = Wb' := funext fun d => funext fun j => hWb d j
  obtain rfl : c1 = c1' := funext hc1
  obtain rfl : W2 = W2' := funext fun j => funext fun k => hW2 j k
  obtain rfl : c2 = c2' := funext hc2
  obtain rfl : W3 = W3' := funext fun k => funext fun o => hW3 k o
  obtain rfl : c3 = c3' := funext hc3
  obtain rfl : a = a' := funext ha
  obtain rfl : b = b' := funext hb
  rw [ho]

/-- The result array: entry `(b, l, p, q, o)` is output `o` of the perceptron on agents `p` and `q` of scene `(b, l)`. -/
def G (s : FVec Ideal ⟨4, ![8, 64, 32, 16]⟩ .f32) (W1 : FVec Ideal ⟨2, ![32, 64]⟩ .f32) (b1 : FVec Ideal ⟨1, ![64]⟩ .f32)
    (W2 : FVec Ideal ⟨2, ![64, 64]⟩ .f32) (b2 : FVec Ideal ⟨1, ![64]⟩ .f32) (W3 : FVec Ideal ⟨2, ![64, 8]⟩ .f32)
    (b3 : FVec Ideal ⟨1, ![8]⟩ .f32) : FVec Ideal ⟨5, ![8, 64, 32, 32, 8]⟩ .f32 := fun i =>
  pairMlp (fun d j => W1 (ix2 (lo d) j)) (fun d j => W1 (ix2 (hi d) j)) (fun j => b1 (ix1 j)) (fun j k => W2 (ix2 j k))
    (fun k => b2 (ix1 k)) (fun k o => W3 (ix2 k o)) (fun o => b3 (ix1 o))
    (fun d => s (ix4 (i 0) (i 1) (i 2) d)) (fun d => s (ix4 (i 0) (i 1) (i 3) d)) (i 4)

/-- The f32 word of one denotes the number one. -/
theorem one_f32 : Ideal.ofBits .f32 0x3F800000#32 = 1 := by
  simp [Ideal.ofBits, Ideal.ieee, -EReal.coe_mul]; norm_num

/-- The logistic spelt with a negation, an exponential, a sum with one and a quotient of one is the logistic. -/
theorem logistic_spelt (z : EReal) :
    FloatOps.hostDivf (F := Ideal) (φ := .f32) (Ideal.ofBits .f32 0x3F800000#32)
      (FloatOps.addf (F := Ideal) (φ := .f32) (Ideal.ofBits .f32 0x3F800000#32) (FloatOps.hostUnary (F := Ideal) (φ := .f32) .exp (FloatOps.hostNegf (F := Ideal) (φ := .f32) z)))
      = Ideal.logistic z := by
  rw [one_f32]
  rfl

end Cert.PairMlp

end
-- ==== Proof.RefValue.lean ====
/-
  The reference, read entry by entry, is the pairwise perceptron.

  The reference lays rows p and q of a scene side by side (two broadcasts and a concatenation along the feature axis),
  multiplies by the whole 32×64 matrix, adds the bias, rectifies; two more dense layers follow, and a logistic spelt
  1 / (1 + exp (−z)). Read at entry (b, l, p, q, ·): a position below 16 of the concatenated axis reads row p, a position
  from 16 on reads row q, so the 32-term sum is the two 16-term sums of the split first layer.
-/
import proofs.«134677_j45938970198104_2_alg».proof.Proof.Gen.ReferenceIdeal.Read
import proofs.«134677_j45938970198104_2_alg».proof.Proof.PairSpec

noncomputable section

namespace Cert.PairMlp.Ref

open Cert.ReferenceIdeal Cert.ReferenceIdeal.Gen Cert.ReferenceIdeal.Read Idealize.ShloMosaic Idealize.ShloMosaic.TcCoe
open Idealize.ShloMosaic.ValueIdx Cert.PairMlp

variable (x0 : (⟨S8x64x32x16, .f32⟩ : BufTy).Contents (Elt Ideal)) (x1 : (⟨S32x64, .f32⟩ : BufTy).Contents (Elt Ideal))
  (x2 : (⟨S64, .f32⟩ : BufTy).Contents (Elt Ideal)) (x3 : (⟨S64x64, .f32⟩ : BufTy).Contents (Elt Ideal))
  (x4 : (⟨S64, .f32⟩ : BufTy).Contents (Elt Ideal)) (x5 : (⟨S64x8, .f32⟩ : BufTy).Contents (Elt Ideal))
  (x6 : (⟨S8, .f32⟩ : BufTy).Contents (Elt Ideal))

/-- A position in the first half of the concatenated feature axis reads agent `p`'s row. -/
theorem paired_lo (b : Fin 8) (l : Fin 64) (p q : Fin 32) (d : Fin 16) :
    val_main_v4 (F := Ideal) x0 (ix5 b l p q (lo d)) = x0 (ix4 b l p d) := by
  unfold val_main_v4
  rw [concatenate_pair_apply_left (s₁ := S8x64x32x32x16) (s₂ := S8x64x32x32x16) _ _ _ _ (ix5 b l p q (lo d)) rfl (ix5 b l p q d) (fun a => by
    match a with
    | ⟨0, _⟩ => rfl
    | ⟨1, _⟩ => rfl
    | ⟨2, _⟩ => rfl
    | ⟨3, _⟩ => rfl
    | ⟨4, _⟩ => rfl)]
  rw [val_main_v1_apply, val_main_v0_apply]
  exact congrArg x0 (funext fun a => Fin.ext (by
    match a with
    | ⟨0, _⟩ => rfl
    | ⟨1, _⟩ => rfl
    | ⟨2, _⟩ => rfl
    | ⟨3, _⟩ => rfl))

/-- A position in the second half reads agent `q`'s row. -/
theorem paired_hi (b : Fin 8) (l : Fin 64) (p q : Fin 32) (d : Fin 16) :
    val_main_v4 (F := Ideal) x0 (ix5 b l p q (hi d)) = x0 (ix4 b l q d) := by
  unfold val_main_v4
  rw [concatenate_pair_apply_right (s₁ := S8x64x32x32x16) (s₂ := S8x64x32x32x16) _ _ _ _ (ix5 b l p q (hi d)) rfl rfl (ix5 b l p q d) (fun a ha => by
    match a with
    | ⟨0, _⟩ => rfl
    | ⟨1, _⟩ => rfl
    | ⟨2, _⟩ => rfl
    | ⟨3, _⟩ => rfl
    | ⟨4, _⟩ => exact absurd rfl ha) (by show d.val + 16 = 16 + d.val; omega)]
  rw [val_main_v3_apply, val_main_v2_apply]
  exact congrArg x0 (funext fun a => Fin.ext (by
    match a with
    | ⟨0, _⟩ => rfl
    | ⟨1, _⟩ => rfl
    | ⟨2, _⟩ => rfl
    | ⟨3, _⟩ => rfl))

/-- The first layer, read at an entry. -/
theorem layer1 (b : Fin 8) (l : Fin 64) (p q : Fin 32) (j : Fin 64) :
    val_main_v9 (F := Ideal) x0 x1 x2 (ix5 b l p q j)
      = hidden1 (fun d j => x1 (ix2 (lo d) j)) (fun d j => x1 (ix2 (hi d) j)) (fun j => x2 (ix1 j))
          (fun d => x0 (ix4 b l p d)) (fun d => x0 (ix4 b l q d)) j := by
  have el : ∀ k : Fin 32, lidx_main_v5 (ix5 b l p q j) k = ix5 b l p q k := fun k => funext fun a => Fin.ext (by
    match a with
    | ⟨0, _⟩ => rfl
    | ⟨1, _⟩ => rfl
    | ⟨2, _⟩ => rfl
    | ⟨3, _⟩ => rfl
    | ⟨4, _⟩ => rfl)
  have er : ∀ k : Fin 32, ridx_main_v5 (ix5 b l p q j) k = ix2 k j := fun k => funext fun a => Fin.ext (by
    match a with
    | ⟨0, _⟩ => rfl
    | ⟨1, _⟩ => rfl)
  have eb : idx_main_v6 (idx_main_v7 (ix5 b l p q j)) = ix1 j := funext fun a => Fin.ext (by
    match a with
    | ⟨0, _⟩ => rfl)
  rw [val_main_v9_apply, val_main_v8_apply, val_main_v5_apply, val_main_v7_apply, val_main_v6_apply,
    val_main_call0_v0_apply, val_main_call0_cst_apply, eb, sum_halves]
  simp only [el, er, paired_lo, paired_hi]
  show max (_ + _) (Ideal.ofBits .f32 0x00000000#32) = _
  rw [Ideal.ofBits_zero_f32]
  rfl

/-- The second layer, read at an entry, over the first layer's entries. -/
theorem layer2 (b : Fin 8) (l : Fin 64) (p q : Fin 32) (k : Fin 64) :
    val_main_v14 (F := Ideal) x0 x1 x2 x3 x4 (ix5 b l p q k)
      = hidden2 (fun j k => x3 (ix2 j k)) (fun k => x4 (ix1 k))
          (fun j => val_main_v9 (F := Ideal) x0 x1 x2 (ix5 b l p q j)) k := by
  have el : ∀ j : Fin 64, lidx_main_v10 (ix5 b l p q k) j = ix5 b l p q j := fun j => funext fun a => Fin.ext (by
    match a with
    | ⟨0, _⟩ => rfl
    | ⟨1, _⟩ => rfl
    | ⟨2, _⟩ => rfl
    | ⟨3, _⟩ => rfl
    | ⟨4, _⟩ => rfl)
  have er : ∀ j : Fin 64, ridx_main_v10 (ix5 b l p q k) j = ix2 j k := fun j => funext fun a => Fin.ext (by
    match a with
    | ⟨0, _⟩ => rfl
    | ⟨1, _⟩ => rfl)
  have eb : idx_main_v11 (idx_main_v12 (ix5 b l p q k)) = ix1 k := funext fun a => Fin.ext (by
    match a with
    | ⟨0, _⟩ => rfl)
  rw [val_main_v14_apply, val_main_v13_apply, val_main_v10_apply, val_main_v12_apply, val_main_v11_apply,
    val_main_call1_v0_apply, val_main_call1_cst_apply, eb]
  simp only [el, er]
  show max (_ + _) (Ideal.ofBits .f32 0x00000000#32) = _
  rw [Ideal.ofBits_zero_f32]
  rfl

/-- The output layer, read at an entry, over the second layer's entries. -/
theorem layer3 (b : Fin 8) (l : Fin 64) (p q : Fin 32) (o : Fin 8) :
    val_main_v24 (F := Ideal) x0 x1 x2 x3 x4 x5 x6 (ix5 b l p q o)
      = score (fun k o => x5 (ix2 k o)) (fun o => x6 (ix1 o))
          (fun k => val_main_v14 (F := Ideal) x0 x1 x2 x3 x4 (ix5 b l p q k)) o := by
  have el : ∀ k : Fin 64, lidx_main_v15 (ix5 b l p q o) k = ix5 b l p q k := fun k => funext fun a => Fin.ext (by
    match a with
    | ⟨0, _⟩ => rfl
    | ⟨1, _⟩ => rfl
    | ⟨2, _⟩ => rfl
    | ⟨3, _⟩ => rfl
    | ⟨4, _⟩ => rfl)
  have er : ∀ k : Fin 64, ridx_main_v15 (ix5 b l p q o) k = ix2 k o := fun k => funext fun a => Fin.ext (by
    match a with
    | ⟨0, _⟩ => rfl
    | ⟨1, _⟩ => rfl)
  have eb : idx_main_v16 (idx_main_v17 (ix5 b l p q o)) = ix1 o := funext fun a => Fin.ext (by
    match a with
    | ⟨0, _⟩ => rfl)
  rw [val_main_v24_apply, val_main_v23_apply, val_main_cst_0_apply, val_main_v22_apply, val_main_v21_apply,
    val_main_cst_apply, val_main_v20_apply, val_main_v19_apply, val_main_v18_apply, val_main_v15_apply,
    val_main_v17_apply, val_main_v16_apply, eb]
  simp only [el, er]
  exact logistic_spelt _

/-- The reference's result is the pairwise perceptron of its arguments. -/
theorem result_eq : val_main_v24 (F := Ideal) x0 x1 x2 x3 x4 x5 x6 = G x0 x1 x2 x3 x4 x5 x6 := by
  funext i
  obtain ⟨b, l, p, q, o, rfl⟩ : ∃ (b : Fin 8) (l : Fin 64) (p q : Fin 32) (o : Fin 8), i = ix5 b l p q o :=
    ⟨i 0, i 1, i 2, i 3, i 4, eq_ix5 i⟩
  rw [layer3]
  simp only [layer2, layer1]
  rfl

end Cert.PairMlp.Ref

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.KernelPayload.lean ====
/-
  What the kernel body computes for one block, entry by entry.

  A block holds 16 scenes. The body multiplies the 512 agent rows of the block by the upper half and by the lower half
  of the first weight matrix (two small products), views the results per scene, and adds row p of the first to row q of
  the second and the bias: that is the first layer on the pair (p, q) without ever forming the 32-vector. It rectifies,
  flattens the 16·32·32 pairs to rows, runs the two remaining dense layers on them, applies the logistic, and stores
  the result with the pair's second agent and the output unit merged into one axis of 32·8 lanes.
  Every step is read at an entry; a change of float format is the identity on extended reals.
-/
import proofs.«134677_j45938970198104_2_alg».proof.Proof.Gen.KernelIdeal.Skeleton
import proofs.«134677_j45938970198104_2_alg».proof.Proof.PairSpec
import proofs.«134677_j45938970198104_2_alg».proof.Proof.LibMatmulSum
import Idealize.ShloMosaic.Lib.Pipeline.Value
import Idealize.ShloMosaic.Lib.ValueLayout
import Idealize.ShloMosaic.Lib.ValueIdx
import Idealize.ShloMosaic.PureOps.Ideal.Laws

noncomputable section

namespace Cert.PairMlp.Body

open Cert.KernelIdeal Cert.KernelIdeal.Gen Idealize.ShloMosaic Idealize.ShloMosaic.ValueIdx
open Cert.PairMlp Cert.GraphConv

/-- Agent `p` of scene `t` among the block's 512 agent rows. -/
abbrev agentRow (t : Fin 16) (p : Fin 32) : Fin 512 := ⟨t.val * 32 + p.val, by have := t.isLt; have := p.isLt; omega⟩
/-- The pair `(p, q)` of scene `t` among the block's 16384 pair rows. -/
abbrev pairRow (t : Fin 16) (p q : Fin 32) : Fin 16384 :=
  ⟨(t.val * 32 + p.val) * 32 + q.val, by have := t.isLt; have := p.isLt; have := q.isLt; omega⟩
/-- Output unit `o` of second agent `q` among the 256 merged lanes. -/
abbrev lane (q : Fin 32) (o : Fin 8) : Fin 256 := ⟨q.val * 8 + o.val, by have := q.isLt; have := o.isLt; omega⟩

/-! ## The three products' coordinates -/

section Dots

theorem d1_l0 (i : S512x64.Idx) (q : dot_S512x16_S16x64_S512x64_1_0_0_1_n_n.contr.Idx) :
    (dot_S512x16_S16x64_S512x64_1_0_0_1_n_n.lhsIdx i q 0).val = (i 0).val := by
  unfold DotDims.lhsIdx
  rw [dif_neg (show ¬(0 : Fin S512x16.rank) ∈ dot_S512x16_S16x64_S512x64_1_0_0_1_n_n.lhsBatch by decide), dif_pos (show (0 : Fin S512x16.rank) ∈ dot_S512x16_S16x64_S512x64_1_0_0_1_n_n.lhsNonContracting by decide)]
  rfl
theorem d1_l1 (i : S512x64.Idx) (q : dot_S512x16_S16x64_S512x64_1_0_0_1_n_n.contr.Idx) :
    (dot_S512x16_S16x64_S512x64_1_0_0_1_n_n.lhsIdx i q 1).val = (q ⟨0, by decide⟩).val :=
  dot_S512x16_S16x64_S512x64_1_0_0_1_n_n.lhsIdx_val_of_single rfl i q
theorem d1_r0 (i : S512x64.Idx) (q : dot_S512x16_S16x64_S512x64_1_0_0_1_n_n.contr.Idx) :
    (dot_S512x16_S16x64_S512x64_1_0_0_1_n_n.rhsIdx i q 0).val = (q ⟨0, by decide⟩).val :=
  dot_S512x16_S16x64_S512x64_1_0_0_1_n_n.rhsIdx_val_of_single rfl i q
theorem d1_r1 (i : S512x64.Idx) (q : dot_S512x16_S16x64_S512x64_1_0_0_1_n_n.contr.Idx) :
    (dot_S512x16_S16x64_S512x64_1_0_0_1_n_n.rhsIdx i q 1).val = (i 1).val := by
  unfold DotDims.rhsIdx
  rw [dif_neg (show ¬(1 : Fin S16x64.rank) ∈ dot_S512x16_S16x64_S512x64_1_0_0_1_n_n.rhsBatch by decide), dif_pos (show (1 : Fin S16x64.rank) ∈ dot_S512x16_S16x64_S512x64_1_0_0_1_n_n.rhsNonContracting by decide)]
  rfl

theorem d2_l0 (i : S16384x64.Idx) (q : dot_S16384x64_S64x64_S16384x64_1_0_0_1_n_n.contr.Idx) :
    (dot_S16384x64_S64x64_S16384x64_1_0_0_1_n_n.lhsIdx i q 0).val = (i 0).val := by
  unfold DotDims.lhsIdx
  rw [dif_neg (show ¬(0 : Fin S16384x64.rank) ∈ dot_S16384x64_S64x64_S16384x64_1_0_0_1_n_n.lhsBatch by decide), dif_pos (show (0 : Fin S16384x64.rank) ∈ dot_S16384x64_S64x64_S16384x64_1_0_0_1_n_n.lhsNonContracting by decide)]
  rfl
theorem d2_l1 (i : S16384x64.Idx) (q : dot_S16384x64_S64x64_S16384x64_1_0_0_1_n_n.contr.Idx) :
    (dot_S16384x64_S64x64_S16384x64_1_0_0_1_n_n.lhsIdx i q 1).val = (q ⟨0, by decide⟩).val :=
  dot_S16384x64_S64x64_S16384x64_1_0_0_1_n_n.lhsIdx_val_of_single rfl i q
theorem d2_r0 (i : S16384x64.Idx) (q : dot_S16384x64_S64x64_S16384x64_1_0_0_1_n_n.contr.Idx) :
    (dot_S16384x64_S64x64_S16384x64_1_0_0_1_n_n.rhsIdx i q 0).val = (q ⟨0, by decide⟩).val :=
  dot_S16384x64_S64x64_S16384x64_1_0_0_1_n_n.rhsIdx_val_of_single rfl i q
theorem d2_r1 (i : S16384x64.Idx) (q : dot_S16384x64_S64x64_S16384x64_1_0_0_1_n_n.contr.Idx) :
    (dot_S16384x64_S64x64_S16384x64_1_0_0_1_n_n.rhsIdx i q 1).val = (i 1).val := by
  unfold DotDims.rhsIdx
  rw [dif_neg (show ¬(1 : Fin S64x64.rank) ∈ dot_S16384x64_S64x64_S16384x64_1_0_0_1_n_n.rhsBatch by decide), dif_pos (show (1 : Fin S64x64.rank) ∈ dot_S16384x64_S64x64_S16384x64_1_0_0_1_n_n.rhsNonContracting by decide)]
  rfl

theorem d3_l0 (i : S16384x8.Idx) (q : dot_S16384x64_S64x8_S16384x8_1_0_0_1_n_n.contr.Idx) :
    (dot_S16384x64_S64x8_S16384x8_1_0_0_1_n_n.lhsIdx i q 0).val = (i 0).val := by
  unfold DotDims.lhsIdx
  rw [dif_neg (show ¬(0 : Fin S16384x64.rank) ∈ dot_S16384x64_S64x8_S16384x8_1_0_0_1_n_n.lhsBatch by decide), dif_pos (show (0 : Fin S16384x64.rank) ∈ dot_S16384x64_S64x8_S16384x8_1_0_0_1_n_n.lhsNonContracting by decide)]
  rfl
theorem d3_l1 (i : S16384x8.Idx) (q : dot_S16384x64_S64x8_S16384x8_1_0_0_1_n_n.contr.Idx) :
    (dot_S16384x64_S64x8_S16384x8_1_0_0_1_n_n.lhsIdx i q 1).val = (q ⟨0, by decide⟩).val :=
  dot_S16384x64_S64x8_S16384x8_1_0_0_1_n_n.lhsIdx_val_of_single rfl i q
theorem d3_r0 (i : S16384x8.Idx) (q : dot_S16384x64_S64x8_S16384x8_1_0_0_1_n_n.contr.Idx) :
    (dot_S16384x64_S64x8_S16384x8_1_0_0_1_n_n.rhsIdx i q 0).val = (q ⟨0, by decide⟩).val :=
  dot_S16384x64_S64x8_S16384x8_1_0_0_1_n_n.rhsIdx_val_of_single rfl i q
theorem d3_r1 (i : S16384x8.Idx) (q : dot_S16384x64_S64x8_S16384x8_1_0_0_1_n_n.contr.Idx) :
    (dot_S16384x64_S64x8_S16384x8_1_0_0_1_n_n.rhsIdx i q 1).val = (i 1).val := by
  unfold DotDims.rhsIdx
  rw [dif_neg (show ¬(1 : Fin S64x8.rank) ∈ dot_S16384x64_S64x8_S16384x8_1_0_0_1_n_n.rhsBatch by decide), dif_pos (show (1 : Fin S64x8.rank) ∈ dot_S16384x64_S64x8_S16384x8_1_0_0_1_n_n.rhsNonContracting by decide)]
  rfl

end Dots

/-! ## The layout steps, read at an entry -/

section Layout
variable {α : Type}

/-- The 512 agent rows viewed per scene, given a unit axis for the second agent and repeated over it: entry
    `(t, p, q, j)` is row `(t, p)`. -/
theorem rows_first (U : S512x64.Idx → α) (h1 : S512x64.ShapeCasts S16x32x64) (h2 : S16x32x64.ShapeCasts S16x32x1x64)
    (h3 : S16x32x1x64.Broadcasts S16x32x32x64) (t : Fin 16) (p q : Fin 32) (j : Fin 64) :
    broadcastTo S16x32x32x64 (shapeCast S16x32x1x64 (shapeCast S16x32x64 U h1) h2) h3 (ix4 t p q j)
      = U (ix2 (agentRow t p) j) := by
  rw [broadcastTo_apply _ h3 (ix4 t p q j) (ix4 t p (0 : Fin 1) j) (fun a => by
    match a with
    | ⟨0, _⟩ => show t.val = if (16 : Nat) = 1 then 0 else t.val; rw [if_neg (by decide)]
    | ⟨1, _⟩ => show p.val = if (32 : Nat) = 1 then 0 else p.val; rw [if_neg (by decide)]
    | ⟨2, _⟩ => show 0 = if (1 : Nat) = 1 then 0 else q.val; rw [if_pos rfl]
    | ⟨3, _⟩ => show j.val = if (64 : Nat) = 1 then 0 else j.val; rw [if_neg (by decide)])]
  rw [shapeCast_apply _ h2 (ix4 t p (0 : Fin 1) j) (ix3 t p j) (by
    rw [Shape.rowMajor_val_three, Shape.rowMajor_val_four]
    show (t.val * 32 + p.val) * 64 + j.val = ((t.val * 32 + p.val) * 1 + 0) * 64 + j.val
    omega)]
  rw [shapeCast_apply _ h1 (ix3 t p j) (ix2 (agentRow t p) j) (by
    rw [Shape.rowMajor_val_two, Shape.rowMajor_val_three]
    show (t.val * 32 + p.val) * 64 + j.val = (t.val * 32 + p.val) * 64 + j.val
    rfl)]

/-- The same rows given a unit axis for the FIRST agent and repeated over it: entry `(t, p, q, j)` is row `(t, q)`. -/
theorem rows_second (V : S512x64.Idx → α) (h1 : S512x64.ShapeCasts S16x32x64) (h2 : S16x32x64.ShapeCasts S16x1x32x64)
    (h3 : S16x1x32x64.Broadcasts S16x32x32x64) (t : Fin 16) (p q : Fin 32) (j : Fin 64) :
    broadcastTo S16x32x32x64 (shapeCast S16x1x32x64 (shapeCast S16x32x64 V h1) h2) h3 (ix4 t p q j)
      = V (ix2 (agentRow t q) j) := by
  rw [broadcastTo_apply _ h3 (ix4 t p q j) (ix4 t (0 : Fin 1) q j) (fun a => by
    match a with
    | ⟨0, _⟩ => show t.val = if (16 : Nat) = 1 then 0 else t.val; rw [if_neg (by decide)]
    | ⟨1, _⟩ => show 0 = if (1 : Nat) = 1 then 0 else p.val; rw [if_pos rfl]
    | ⟨2, _⟩ => show q.val = if (32 : Nat) = 1 then 0 else q.val; rw [if_neg (by decide)]
    | ⟨3, _⟩ => show j.val = if (64 : Nat) = 1 then 0 else j.val; rw [if_neg (by decide)])]
  rw [shapeCast_apply _ h2 (ix4 t (0 : Fin 1) q j) (ix3 t q j) (by
    rw [Shape.rowMajor_val_three, Shape.rowMajor_val_four]
    show (t.val * 32 + q.val) * 64 + j.val = ((t.val * 1 + 0) * 32 + q.val) * 64 + j.val
    omega)]
  rw [shapeCast_apply _ h1 (ix3 t q j) (ix2 (agentRow t q) j) (by
    rw [Shape.rowMajor_val_two, Shape.rowMajor_val_three]
    show (t.val * 32 + q.val) * 64 + j.val = (t.val * 32 + q.val) * 64 + j.val
    rfl)]

/-- A bias vector given three unit axes and repeated over scenes and both agents: entry `(t, p, q, j)` is `c[j]`. -/
theorem bias_pairs (c : S64.Idx → α) (h1 : S64.ShapeCasts S1x1x1x64) (h2 : S1x1x1x64.Broadcasts S16x32x32x64)
    (t : Fin 16) (p q : Fin 32) (j : Fin 64) :
    broadcastTo S16x32x32x64 (shapeCast S1x1x1x64 c h1) h2 (ix4 t p q j) = c (ix1 j) := by
  rw [broadcastTo_apply _ h2 (ix4 t p q j) (ix4 (0 : Fin 1) (0 : Fin 1) (0 : Fin 1) j) (fun a => by
    match a with
    | ⟨0, _⟩ => show 0 = if (1 : Nat) = 1 then 0 else t.val; rw [if_pos rfl]
    | ⟨1, _⟩ => show 0 = if (1 : Nat) = 1 then 0 else p.val; rw [if_pos rfl]
    | ⟨2, _⟩ => show 0 = if (1 : Nat) = 1 then 0 else q.val; rw [if_pos rfl]
    | ⟨3, _⟩ => show j.val = if (64 : Nat) = 1 then 0 else j.val; rw [if_neg (by decide)])]
  rw [shapeCast_apply _ h1 (ix4 (0 : Fin 1) (0 : Fin 1) (0 : Fin 1) j) (ix1 j) (by
    rw [Shape.rowMajor_val_one, Shape.rowMajor_val_four]
    show j.val = ((0 * 1 + 0) * 1 + 0) * 64 + j.val
    omega)]

/-- The pairs flattened to rows: row `(t, p, q)` is entry `(t, p, q, ·)`. -/
theorem pairs_flat (H : S16x32x32x64.Idx → α) (h : S16x32x32x64.ShapeCasts S16384x64) (t : Fin 16) (p q : Fin 32) (j : Fin 64) :
    shapeCast S16384x64 H h (ix2 (pairRow t p q) j) = H (ix4 t p q j) := by
  rw [shapeCast_apply _ h (ix2 (pairRow t p q) j) (ix4 t p q j) (by
    rw [Shape.rowMajor_val_four, Shape.rowMajor_val_two]
    show ((t.val * 32 + p.val) * 32 + q.val) * 64 + j.val = ((t.val * 32 + p.val) * 32 + q.val) * 64 + j.val
    rfl)]

/-- A bias vector as one row repeated over all pair rows. -/
theorem bias_rows {K : Nat} (c : (⟨1, ![K]⟩ : Shape).Idx → α) (h1 : (⟨1, ![K]⟩ : Shape).ShapeCasts ⟨2, ![1, K]⟩)
    (h2 : (⟨2, ![1, K]⟩ : Shape).Broadcasts ⟨2, ![16384, K]⟩) (r : Fin 16384) (k : Fin K) :
    broadcastTo ⟨2, ![16384, K]⟩ (shapeCast ⟨2, ![1, K]⟩ c h1) h2 (ix2 r k) = c (ix1 k) := by
  rw [broadcastTo_1b_ab_apply, shapeCast_a_1a_apply]

/-- The pair rows viewed per scene and first agent, with the second agent and the output unit merged into lanes:
    entry `(t, p, q·8 + o)` is row `(t, p, q)`, column `o`. -/
theorem lanes_merged (Z : S16384x8.Idx → α) (h1 : S16384x8.ShapeCasts S16x32x32x8) (h2 : S16x32x32x8.ShapeCasts S16x32x256)
    (t : Fin 16) (p q : Fin 32) (o : Fin 8) :
    shapeCast S16x32x256 (shapeCast S16x32x32x8 Z h1) h2 (ix3 t p (lane q o)) = Z (ix2 (pairRow t p q) o) := by
  rw [shapeCast_apply _ h2 (ix3 t p (lane q o)) (ix4 t p q o) (by
    rw [Shape.rowMajor_val_four, Shape.rowMajor_val_three]
    show ((t.val * 32 + p.val) * 32 + q.val) * 8 + o.val = (t.val * 32 + p.val) * 256 + (q.val * 8 + o.val)
    omega)]
  rw [shapeCast_apply _ h1 (ix4 t p q o) (ix2 (pairRow t p q) o) (by
    rw [Shape.rowMajor_val_two, Shape.rowMajor_val_four]
    show ((t.val * 32 + p.val) * 32 + q.val) * 8 + o.val = ((t.val * 32 + p.val) * 32 + q.val) * 8 + o.val
    rfl)]

end Layout

/-! ## The body's stages -/

/-- The block's agent rows times one half of the first weight matrix. -/
def proj (x0 : Vec Ideal S16x32x16 .f32) (w : Vec Ideal S16x64 .f32) : FVec Ideal S512x64 .f32 :=
  matmul dot_S512x16_S16x64_S512x64_1_0_0_1_n_n none
    (truncf .bf16 (shapeCast S512x16 (shapeCast S16x32x16 x0 shapeCasts_S16x32x16_S16x32x16) shapeCasts_S16x32x16_S512x16) bitsLt_bf16_f32)
    (truncf .bf16 (shapeCast S16x64 w shapeCasts_S16x64_S16x64) bitsLt_bf16_f32)
    (constant S512x64 .f32 0x00000000#32)

/-- The rectified first layer on all pairs of the block. -/
def act1 (U V : FVec Ideal S512x64 .f32) (c : Vec Ideal S64 .f32) : FVec Ideal S16x32x32x64 .f32 :=
  maximumf
    (addf
      (addf
        (broadcastTo S16x32x32x64 (shapeCast S16x32x1x64 (shapeCast S16x32x64 U shapeCasts_S512x64_S16x32x64) shapeCasts_S16x32x64_S16x32x1x64) broadcasts_S16x32x1x64_S16x32x32x64)
        (broadcastTo S16x32x32x64 (shapeCast S16x1x32x64 (shapeCast S16x32x64 V shapeCasts_S512x64_S16x32x64) shapeCasts_S16x32x64_S16x1x32x64) broadcasts_S16x1x32x64_S16x32x32x64))
      (broadcastTo S16x32x32x64 (shapeCast S1x1x1x64 c shapeCasts_S64_S1x1x1x64) broadcasts_S1x1x1x64_S16x32x32x64))
    (broadcast S16x32x32x64 (Scalar.ofBits (F := Ideal) .f32 0x00000000#32))

/-- The rectified second layer on the flattened pair rows. -/
def act2 (H : FVec Ideal S16x32x32x64 .f32) (w : Vec Ideal S64x64 .f32) (c : Vec Ideal S64 .f32) : FVec Ideal S16384x64 .f32 :=
  maximumf
    (addf
      (matmul dot_S16384x64_S64x64_S16384x64_1_0_0_1_n_n none
        (shapeCast S16384x64 (truncf .bf16 H bitsLt_bf16_f32) shapeCasts_S16x32x32x64_S16384x64)
        (truncf .bf16 w bitsLt_bf16_f32) (constant S16384x64 .f32 0x00000000#32))
      (broadcastTo S16384x64 (shapeCast S1x64 c shapeCasts_S64_S1x64) broadcasts_S1x64_S16384x64))
    (broadcast S16384x64 (Scalar.ofBits (F := Ideal) .f32 0x00000000#32))

/-- The third product on the pair rows. -/
def out3 (H : FVec Ideal S16384x64 .f32) (w : Vec Ideal S64x8 .f32) : FVec Ideal S16384x8 .f32 :=
  matmul dot_S16384x64_S64x8_S16384x8_1_0_0_1_n_n none (truncf .bf16 H bitsLt_bf16_f32) (truncf .bf16 w bitsLt_bf16_f32)
    (constant S16384x8 .f32 0x00000000#32)

/-- The body's value before the bias and logistic of the last layer is these stages composed. -/
theorem pay2_stages (x0 : Vec Ideal S16x32x16 .f32) (x1 x2 : Vec Ideal S16x64 .f32) (x3 : Vec Ideal S64 .f32)
    (x4 : Vec Ideal S64x64 .f32) (x5 : Vec Ideal S64 .f32) (x6 : Vec Ideal S64x8 .f32) :
    k0_pay2 (F := Ideal) x0 x1 x2 x3 x4 x5 x6 = out3 (act2 (act1 (proj x0 x1) (proj x0 x2) x3) x4 x5) x6 := rfl

/-- One half-product at an entry: row `(t, p)` of the block against column `j` of the half matrix. -/
theorem proj_apply (x0 : Vec Ideal S16x32x16 .f32) (w : Vec Ideal S16x64 .f32) (t : Fin 16) (p : Fin 32) (j : Fin 64) :
    proj x0 w (ix2 (agentRow t p) j) = ∑ d : Fin 16, x0 (ix3 t p d) * w (ix2 d j) := by
  unfold proj
  refine (matmul_zero_sum dot_S512x16_S16x64_S512x64_1_0_0_1_n_n none rfl rfl d1_l0 d1_l1 d1_r0 d1_r1 _ _ _).trans ?_
  refine Finset.sum_congr rfl fun d _ => ?_
  show shapeCast S512x16 (shapeCast S16x32x16 x0 shapeCasts_S16x32x16_S16x32x16) shapeCasts_S16x32x16_S512x16 (ix2 (agentRow t p) d)
      * shapeCast S16x64 w shapeCasts_S16x64_S16x64 (ix2 d j) = _
  rw [shapeCast_self, shapeCast_self, shapeCast_apply x0 shapeCasts_S16x32x16_S512x16 (ix2 (agentRow t p) d) (ix3 t p d) (by
    rw [Shape.rowMajor_val_three, Shape.rowMajor_val_two]
    show (t.val * 32 + p.val) * 16 + d.val = (t.val * 32 + p.val) * 16 + d.val
    rfl)]

/-- The first layer at an entry. -/
theorem act1_apply (U V : FVec Ideal S512x64 .f32) (c : Vec Ideal S64 .f32) (t : Fin 16) (p q : Fin 32) (j : Fin 64) :
    act1 U V c (ix4 t p q j) = max ((U (ix2 (agentRow t p) j) + V (ix2 (agentRow t q) j)) + c (ix1 j)) 0 := by
  unfold act1
  rw [maximumf_apply, addf_apply, addf_apply, rows_first, rows_second, bias_pairs, broadcast_apply]
  show max _ (Ideal.ofBits .f32 0x00000000#32) = _
  rw [Ideal.ofBits_zero_f32]

/-- The second layer at an entry. -/
theorem act2_apply (H : FVec Ideal S16x32x32x64 .f32) (w : Vec Ideal S64x64 .f32) (c : Vec Ideal S64 .f32)
    (t : Fin 16) (p q : Fin 32) (k : Fin 64) :
    act2 H w c (ix2 (pairRow t p q) k) = max ((∑ j : Fin 64, H (ix4 t p q j) * w (ix2 j k)) + c (ix1 k)) 0 := by
  unfold act2
  rw [maximumf_apply, addf_apply, bias_rows, broadcast_apply]
  show max (FloatOps.matmul _ _ _ _ _ _ + _) (Ideal.ofBits .f32 0x00000000#32) = _
  rw [Ideal.ofBits_zero_f32, matmul_zero_sum dot_S16384x64_S64x64_S16384x64_1_0_0_1_n_n none rfl rfl d2_l0 d2_l1 d2_r0 d2_r1]
  refine congrArg (fun s => max (s + c (ix1 k)) 0) (Finset.sum_congr rfl fun j _ => ?_)
  show shapeCast S16384x64 (truncf .bf16 H bitsLt_bf16_f32) shapeCasts_S16x32x32x64_S16384x64 (ix2 (pairRow t p q) j) * w (ix2 j k) = _
  rw [pairs_flat]
  rfl

/-- The third product at an entry. -/
theorem out3_apply (H : FVec Ideal S16384x64 .f32) (w : Vec Ideal S64x8 .f32) (r : Fin 16384) (o : Fin 8) :
    out3 H w (ix2 r o) = ∑ k : Fin 64, H (ix2 r k) * w (ix2 k o) := by
  unfold out3
  exact matmul_zero_sum dot_S16384x64_S64x8_S16384x8_1_0_0_1_n_n none rfl rfl d3_l0 d3_l1 d3_r0 d3_r1 _ _ _

/-- THE BLOCK'S RESULT at entry `(t, p, q·8 + o)`: output `o` of the perceptron on rows `p` and `q` of the block's scene
    `t`, with the two halves of the first weight matrix as the body was handed them. -/
theorem payload_apply (x0 : Vec Ideal S16x32x16 .f32) (x1 x2 : Vec Ideal S16x64 .f32) (x3 : Vec Ideal S64 .f32)
    (x4 : Vec Ideal S64x64 .f32) (x5 : Vec Ideal S64 .f32) (x6 : Vec Ideal S64x8 .f32) (x7 : Vec Ideal S8 .f32)
    (t : Fin 16) (p q : Fin 32) (o : Fin 8) :
    k0_pay1 (F := Ideal) (k0_pay2 (F := Ideal) x0 x1 x2 x3 x4 x5 x6) x7 (ix3 t p (lane q o))
      = pairMlp (fun d j => x1 (ix2 d j)) (fun d j => x2 (ix2 d j)) (fun j => x3 (ix1 j)) (fun j k => x4 (ix2 j k))
          (fun k => x5 (ix1 k)) (fun k o => x6 (ix2 k o)) (fun o => x7 (ix1 o))
          (fun d => x0 (ix3 t p d)) (fun d => x0 (ix3 t q d)) o := by
  rw [pay2_stages]
  show shapeCast S16x32x256 (shapeCast S16x32x32x8
      (logistic (addf (out3 (act2 (act1 (proj x0 x1) (proj x0 x2) x3) x4 x5) x6)
        (broadcastTo S16384x8 (shapeCast S1x8 x7 shapeCasts_S8_S1x8) broadcasts_S1x8_S16384x8)))
      shapeCasts_S16384x8_S16x32x32x8) shapeCasts_S16x32x32x8_S16x32x256 (ix3 t p (lane q o)) = _
  rw [lanes_merged]
  show Ideal.logistic (out3 _ x6 (ix2 (pairRow t p q) o)
      + broadcastTo S16384x8 (shapeCast S1x8 x7 shapeCasts_S8_S1x8) broadcasts_S1x8_S16384x8 (ix2 (pairRow t p q) o)) = _
  rw [bias_rows, out3_apply]
  simp only [act2_apply, act1_apply, proj_apply]
  rfl

end Cert.PairMlp.Body

end
-- ==== Proof.KernelBlocks.lean ====
/-
  From blocks to the array the kernel leaves.

  The grid has 32 points; point t works on scenes 16·t … 16·t + 15: its block of the flattened input holds those
  scenes' agents, every weight and bias is handed to it whole, and it writes back rows 16·t … 16·t + 15 of the
  [512, 32, 256] result. So every point writes a block of ONE function of the arrays the region finds — entry
  (g, p, q·8 + o) is output o of the perceptron on agents p and q of scene g — and the 32 blocks tile the result.
-/
import proofs.«134677_j45938970198104_2_alg».proof.Proof.Gen.KernelIdeal.Frame
import proofs.«134677_j45938970198104_2_alg».proof.Proof.KernelPayload
import Idealize.ShloMosaic.Lib.Pipeline.Value

noncomputable section

namespace Cert.PairMlp.Blocks

open Cert.KernelIdeal Cert.KernelIdeal.Gen Idealize.ShloMosaic Idealize.ShloMosaic.TcCoe Idealize.SL.Sem
open Idealize.ShloMosaic.Pipeline (Dat)
open Idealize.ShloMosaic.ValueIdx Cert.PairMlp Cert.PairMlp.Body

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The second agent a lane belongs to. -/
abbrev laneAgent (c : Fin 256) : Fin 32 := ⟨c.val / 8, by have := c.isLt; omega⟩
/-- The output unit a lane holds. -/
abbrev laneUnit (c : Fin 256) : Fin 8 := ⟨c.val % 8, Nat.mod_lt _ (by decide)⟩

theorem lane_split (c : Fin 256) : c = lane (laneAgent c) (laneUnit c) :=
  Fin.ext (by show c.val = c.val / 8 * 8 + c.val % 8; omega)

/-- The block's result at any entry of the block. -/
theorem payload_at (x0 : Vec Ideal S16x32x16 .f32) (x1 x2 : Vec Ideal S16x64 .f32) (x3 : Vec Ideal S64 .f32)
    (x4 : Vec Ideal S64x64 .f32) (x5 : Vec Ideal S64 .f32) (x6 : Vec Ideal S64x8 .f32) (x7 : Vec Ideal S8 .f32)
    (y : S16x32x256.Idx) :
    k0_pay1 (F := Ideal) (k0_pay2 (F := Ideal) x0 x1 x2 x3 x4 x5 x6) x7 y
      = pairMlp (fun d j => x1 (ix2 d j)) (fun d j => x2 (ix2 d j)) (fun j => x3 (ix1 j)) (fun j k => x4 (ix2 j k))
          (fun k => x5 (ix1 k)) (fun k o => x6 (ix2 k o)) (fun o => x7 (ix1 o))
          (fun d => x0 (ix3 (y 0) (y 1) d)) (fun d => x0 (ix3 (y 0) (laneAgent (y 2)) d)) (laneUnit (y 2)) := by
  have e : y = ix3 (y 0) (y 1) (lane (laneAgent (y 2)) (laneUnit (y 2))) :=
    (eq_ix3 y).trans (congrArg (fun c : Fin 256 => (ix3 (y 0) (y 1) c : S16x32x256.Idx)) (lane_split (y 2)))
  exact (congrArg (k0_pay1 (F := Ideal) (k0_pay2 (F := Ideal) x0 x1 x2 x3 x4 x5 x6) x7) e).trans
    (payload_apply x0 x1 x2 x3 x4 x5 x6 x7 (y 0) (y 1) (laneAgent (y 2)) (laneUnit (y 2)))

/-- What the result array holds after the region, as one function of the arrays the region finds: entry
    `(g, p, q·8 + o)` is output `o` of the perceptron on agents `p` and `q` of scene `g`. -/
def GK (A0 : FVec Ideal S512x32x16 .f32) (A1 A2 : FVec Ideal S16x64 .f32) (A3 : FVec Ideal S64 .f32)
    (A4 : FVec Ideal S64x64 .f32) (A5 : FVec Ideal S64 .f32) (A6 : FVec Ideal S64x8 .f32) (A7 : FVec Ideal S8 .f32) :
    FVec Ideal S512x32x256 .f32 := fun i =>
  pairMlp (fun d j => A1 (ix2 d j)) (fun d j => A2 (ix2 d j)) (fun j => A3 (ix1 j)) (fun j k => A4 (ix2 j k))
    (fun k => A5 (ix1 k)) (fun k o => A6 (ix2 k o)) (fun o => A7 (ix1 o))
    (fun d => A0 (ix3 (i 0) (i 1) d)) (fun d => A0 (ix3 (i 0) (laneAgent (i 2)) d)) (laneUnit (i 2))

/-- The printed index maps, decided over the grid: the input of scenes and the result move with the point along
    their first axis, every other window stays at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 3) = t.val ∧ win0_8.index t (1 : Fin 3) = 0 ∧ win0_8.index t (2 : Fin 3) = 0 :=
  (by decide +kernel : ∀ t : Fin grid0.N, _)

/-- Every block row of the result is some point's. -/
theorem idx_onto : ∀ g : Fin 32, ∃ t : Fin cfg0.N, win0_8.index t (0 : Fin 3) = g.val
    ∧ win0_8.index t (1 : Fin 3) = 0 ∧ win0_8.index t (2 : Fin 3) = 0 :=
  (by decide +kernel : ∀ g : Fin 32, ∃ t : Fin grid0.N, win0_8.index t (0 : Fin 3) = g.val
    ∧ win0_8.index t (1 : Fin 3) = 0 ∧ win0_8.index t (2 : Fin 3) = 0)

/-! ## The input blocks as entries of the arrays -/

/-- Point `t`'s block of the flattened input is scenes `16·t …`. -/
theorem iblk0_apply (c : Dev nD) (t : Fin cfg0.N) (x : S16x32x16.Idx) (k : S512x32x16.Idx)
    (hk0 : (k 0).val = 16 * t.val + (x 0).val) (hk1 : (k 1).val = (x 1).val) (hk2 : (k 2).val = (x 2).val) :
    (iblk m c 0 t : Vec Ideal S16x32x16 .f32) x = (V m c main_v0 : S512x32x16.Idx → Elt Ideal .f32) k := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 16 + 1 * (x 0).val = (k 0).val; rw [e0, hk0]; omega
  | ⟨1, _⟩ => show win0_0.index t (1 : Fin 3) * 32 + 1 * (x 1).val = (k 1).val; rw [e1, hk1]; omega
  | ⟨2, _⟩ => show win0_0.index t (2 : Fin 3) * 16 + 1 * (x 2).val = (k 2).val; rw [e2, hk2]; omega

theorem iblk1_apply (c : Dev nD) (t : Fin cfg0.N) (x : S16x64.Idx) :
    (iblk m c 1 t : Vec Ideal S16x64 .f32) x = (V m c main_v1 : S16x64.Idx → Elt Ideal .f32) x := by
  obtain ⟨-, -, -, e0, e1, -⟩ := idx_facts t
  unfold iblk
  rw [View.read_apply]
  show V m c main_v1 _ = V m c main_v1 _
  congr 1
  funext a
  apply Fin.ext
  match a with
  | ⟨0, _⟩ => show win0_1.index t (0 : Fin 2) * 16 + 1 * (x 0).val = (x 0).val; rw [e0]; omega
  | ⟨1, _⟩ => show win0_1.index t (1 : Fin 2) * 64 + 1 * (x 1).val = (x 1).val; rw [e1]; omega

theorem iblk2_apply (c : Dev nD) (t : Fin cfg0.N) (x : S16x64.Idx) :
    (iblk m c 2 t : Vec Ideal S16x64 .f32) x = (V m c main_v2 : S16x64.Idx → Elt Ideal .f32) x := by
  obtain ⟨-, -, -, -, -, e0, e1, -⟩ := idx_facts t
  unfold iblk
  rw [View.read_apply]
  show V m c main_v2 _ = V m c main_v2 _
  congr 1
  funext a
  apply Fin.ext
  match a with
  | ⟨0, _⟩ => show win0_2.index t (0 : Fin 2) * 16 + 1 * (x 0).val = (x 0).val; rw [e0]; omega
  | ⟨1, _⟩ => show win0_2.index t (1 : Fin 2) * 64 + 1 * (x 1).val = (x 1).val; rw [e1]; omega

theorem iblk3_apply (c : Dev nD) (t : Fin cfg0.N) (x : S64.Idx) :
    (iblk m c 3 t : Vec Ideal S64 .f32) x = (V m c main_arg2 : S64.Idx → Elt Ideal .f32) x := by
  obtain ⟨-, -, -, -, -, -, -, e0, -⟩ := idx_facts t
  unfold iblk
  rw [View.read_apply]
  show V m c main_arg2 _ = V m c main_arg2 _
  congr 1
  funext a
  apply Fin.ext
  match a with
  | ⟨0, _⟩ => show win0_3.index t (0 : Fin 1) * 64 + 1 * (x 0).val = (x 0).val; rw [e0]; omega

theorem iblk4_apply (c : Dev nD) (t : Fin cfg0.N) (x : S64x64.Idx) :
    (iblk m c 4 t : Vec Ideal S64x64 .f32) x = (V m c main_arg3 : S64x64.Idx → Elt Ideal .f32) x := by
  obtain ⟨-, -, -, -, -, -, -, -, e0, e1, -⟩ := idx_facts t
  unfold iblk
  rw [View.read_apply]
  show V m c main_arg3 _ = V m c main_arg3 _
  congr 1
  funext a
  apply Fin.ext
  match a with
  | ⟨0, _⟩ => show win0_4.index t (0 : Fin 2) * 64 + 1 * (x 0).val = (x 0).val; rw [e0]; omega
  | ⟨1, _⟩ => show win0_4.index t (1 : Fin 2) * 64 + 1 * (x 1).val = (x 1).val; rw [e1]; omega

theorem iblk5_apply (c : Dev nD) (t : Fin cfg0.N) (x : S64.Idx) :
    (iblk m c 5 t : Vec Ideal S64 .f32) x = (V m c main_arg4 : S64.Idx → Elt Ideal .f32) x := by
  obtain ⟨-, -, -, -, -, -, -, -, -, -, e0, -⟩ := idx_facts t
  unfold iblk
  rw [View.read_apply]
  show V m c main_arg4 _ = V m c main_arg4 _
  congr 1
  funext a
  apply Fin.ext
  match a with
  | ⟨0, _⟩ => show win0_5.index t (0 : Fin 1) * 64 + 1 * (x 0).val = (x 0).val; rw [e0]; omega

theorem iblk6_apply (c : Dev nD) (t : Fin cfg0.N) (x : S64x8.Idx) :
    (iblk m c 6 t : Vec Ideal S64x8 .f32) x = (V m c main_arg5 : S64x8.Idx → Elt Ideal .f32) x := by
  obtain ⟨-, -, -, -, -, -, -, -, -, -, -, e0, e1, -⟩ := idx_facts t
  unfold iblk
  rw [View.read_apply]
  show V m c main_arg5 _ = V m c main_arg5 _
  congr 1
  funext a
  apply Fin.ext
  match a with
  | ⟨0, _⟩ => show win0_6.index t (0 : Fin 2) * 64 + 1 * (x 0).val = (x 0).val; rw [e0]; omega
  | ⟨1, _⟩ => show win0_6.index t (1 : Fin 2) * 8 + 1 * (x 1).val = (x 1).val; rw [e1]; omega

theorem iblk7_apply (c : Dev nD) (t : Fin cfg0.N) (x : S8.Idx) :
    (iblk m c 7 t : Vec Ideal S8 .f32) x = (V m c main_arg6 : S8.Idx → Elt Ideal .f32) x := by
  obtain ⟨-, -, -, -, -, -, -, -, -, -, -, -, -, e0, -⟩ := idx_facts t
  unfold iblk
  rw [View.read_apply]
  show V m c main_arg6 _ = V m c main_arg6 _
  congr 1
  funext a
  apply Fin.ext
  match a with
  | ⟨0, _⟩ => show win0_7.index t (0 : Fin 1) * 8 + 1 * (x 0).val = (x 0).val; rw [e0]; omega

end Cert.PairMlp.Blocks

end
-- ==== Proof.KernelFinal.lean ====
/-
  What each grid point writes back, that the 32 blocks tile the result, and so the whole result array after the region.
-/
import proofs.«134677_j45938970198104_2_alg».proof.Proof.KernelBlocks

noncomputable section

namespace Cert.PairMlp.Blocks

open Cert.KernelIdeal Cert.KernelIdeal.Gen Idealize.ShloMosaic Idealize.ShloMosaic.TcCoe Idealize.SL.Sem
open Idealize.ShloMosaic.Pipeline (Dat)
open Idealize.ShloMosaic.ValueIdx Cert.PairMlp Cert.PairMlp.Body

variable (m : (ℓ : Loc nD τ sig) → Buf (Elt Ideal) ℓ) (ρ : Dev nD → PrngReg)

/-! ## What a point writes back, the cover, the array -/

/-- The arrays the region finds, put through `GK`. -/
abbrev found (c : Dev nD) : FVec Ideal S512x32x256 .f32 :=
  GK (V m c main_v0) (V m c main_v1) (V m c main_v2) (V m c main_arg2) (V m c main_arg3) (V m c main_arg4)
    (V m c main_arg5) (V m c main_arg6)

/-- An entry of the block that point `t` computes is the entry of `found` it will be written to: the block's scene `z 0`
    is scene `16·t + z 0` of the flattened input. -/
theorem block_entry (c : Dev nD) (t : Fin cfg0.N) (z : S16x32x256.Idx) (k : S512x32x256.Idx)
    (h0 : (k 0).val = 16 * t.val + (z 0).val) (h1 : (k 1).val = (z 1).val) (h2 : (k 2).val = (z 2).val) :
    k0_pay1 (F := Ideal) (k0_pay2 (F := Ideal) (iblk m c 0 t) (iblk m c 1 t) (iblk m c 2 t) (iblk m c 3 t) (iblk m c 4 t)
      (iblk m c 5 t) (iblk m c 6 t)) (iblk m c 7 t) z = found m c k := by
  refine (payload_at (iblk m c 0 t) (iblk m c 1 t) (iblk m c 2 t) (iblk m c 3 t) (iblk m c 4 t) (iblk m c 5 t)
    (iblk m c 6 t) (iblk m c 7 t) z).trans ?_
  exact pairMlp_congr (fun d j => iblk1_apply m c t (ix2 d j)) (fun d j => iblk2_apply m c t (ix2 d j))
    (fun j => iblk3_apply m c t (ix1 j)) (fun j k => iblk4_apply m c t (ix2 j k)) (fun k => iblk5_apply m c t (ix1 k))
    (fun k o => iblk6_apply m c t (ix2 k o)) (fun o => iblk7_apply m c t (ix1 o))
    (fun d => iblk0_apply m c t (ix3 (z 0) (z 1) d) (ix3 (k 0) (k 1) d) h0 h1 rfl)
    (fun d => iblk0_apply m c t (ix3 (z 0) (laneAgent (z 2)) d) (ix3 (k 0) (laneAgent (k 2)) d) h0
      (by show (k 2).val / 8 = (z 2).val / 8; rw [h2]) rfl)
    (Fin.ext (by show (z 2).val % 8 = (k 2).val % 8; rw [h2]))

/-- WHAT POINT `t` WRITES BACK is block `t` of `found`. -/
theorem flushed_eq (c : Dev nD) (t : Fin cfg0.N) :
    (dats m 0 c).flushed 8 t = ((cfg0.win 8).blk t).view.read (Elt Ideal) (found m c) := by
  show (cfg0.win 8).cut (grid0.coords t) ((dats m 0 c).after 8 t) = _
  rw [after0_8]
  unfold out0_8
  rw [View.canon_unit_zero hz3]
  simp only [View.ld_unit_zero (S := S16x32x16) hz3, View.ld_unit_zero (S := S16x64) hz2, View.ld_unit_zero (S := S64) hz1,
    View.ld_unit_zero (S := S64x64) hz2, View.ld_unit_zero (S := S64x8) hz2, View.ld_unit_zero (S := S8) hz1]
  obtain ⟨-, -, -, -, -, -, -, -, -, -, -, -, -, -, e0, e1, e2⟩ := idx_facts t
  funext y
  rw [View.read_apply]
  exact block_entry m c t ((win0 8).xinj (grid0.coords t) y) (((cfg0.win 8).blk t).view.emb y)
    (by show win0_8.index t (0 : Fin 3) * 16 + 1 * (y 0).val = 16 * t.val + (y 0).val; rw [e0]; omega)
    (by show win0_8.index t (1 : Fin 3) * 32 + 1 * (y 1).val = (y 1).val; rw [e1]; omega)
    (by show win0_8.index t (2 : Fin 3) * 256 + 1 * (y 2).val = (y 2).val; rw [e2]; omega)

/-- An index of the result is in point `t`'s block iff each coordinate is in the block's range on its axis. -/
theorem mem_blk (t : Fin cfg0.N) (i : S512x32x256.Idx) :
    i ∈ ((cfg0.win 8).blk t).view.set ↔ ∀ a : Fin 3, win0_8.index t a * S16x32x256.size a ≤ (i a).val
      ∧ (i a).val < win0_8.index t a * S16x32x256.size a + S16x32x256.size a := by
  show i ∈ ((View.whole main_v3).slice (win0_8.rect t)).set ↔ _
  rw [View.set_slice_whole, Rect.mem_set_unit]
  exact Iff.rfl

/-- The blocks tile the result: scene `g` is in the block of point `g / 16`. -/
theorem cover (i : S512x32x256.Idx) : ∃ t : Fin cfg0.N, (cfg0.win 8).flush t = true ∧ i ∈ ((cfg0.win 8).blk t).view.set := by
  have hi0 : (i 0).val < 512 := (i 0).isLt
  have hi1 : (i 1).val < 32 := (i 1).isLt
  have hi2 : (i 2).val < 256 := (i 2).isLt
  obtain ⟨t, q0, q1, q2⟩ := idx_onto ⟨(i 0).val / 16, by omega⟩
  refine ⟨t, flush0_8 t, ?_⟩
  rw [mem_blk]
  intro a
  match a with
  | ⟨0, _⟩ => show win0_8.index t (0 : Fin 3) * 16 ≤ (i 0).val ∧ (i 0).val < win0_8.index t (0 : Fin 3) * 16 + 16
              rw [q0]; show (i 0).val / 16 * 16 ≤ (i 0).val ∧ (i 0).val < (i 0).val / 16 * 16 + 16; omega
  | ⟨1, _⟩ => show win0_8.index t (1 : Fin 3) * 32 ≤ (i 1).val ∧ (i 1).val < win0_8.index t (1 : Fin 3) * 32 + 32
              rw [q1]; omega
  | ⟨2, _⟩ => show win0_8.index t (2 : Fin 3) * 256 ≤ (i 2).val ∧ (i 2).val < win0_8.index t (2 : Fin 3) * 256 + 256
              rw [q2]; omega

/-- THE RESULT ARRAY after the region. -/
theorem final (c : Dev nD) : (dats m 0 c).arrAt 8 cfg0.N = found m c :=
  (dats m 0 c).arrAt_eq_of_cover 8 (found m c) (fun t _ => flushed_eq m c t) cover

end Cert.PairMlp.Blocks

end
-- ==== Proof.KernelWhole.lean ====
/-
  The host's side of the kernel program, as mathematics.

  Before the region the input [8, 64, 32, 16] is flattened to 512 scenes and the 32×64 first weight matrix is cut into
  its rows 0–15 and its rows 16–31; after it the [512, 32, 256] result is viewed as [8, 64, 32, 32, 8]. Scene b·64 + l
  of the flattened input is scene (b, l); lane q·8 + o is output o for second agent q. So the viewed result is the
  pairwise perceptron of the arguments.
-/
import proofs.«134677_j45938970198104_2_alg».proof.Proof.KernelBlocks

noncomputable section

namespace Cert.PairMlp.Blocks

open Cert.KernelIdeal Idealize.ShloMosaic Idealize.ShloMosaic.ValueIdx Cert.PairMlp Cert.PairMlp.Body

/-- Scene `(b, l)` among the 512 flattened scenes. -/
abbrev scene (b : Fin 8) (l : Fin 64) : Fin 512 := ⟨b.val * 64 + l.val, by have := b.isLt; have := l.isLt; omega⟩

theorem laneAgent_lane (q : Fin 32) (o : Fin 8) : laneAgent (lane q o) = q :=
  Fin.ext (by show (q.val * 8 + o.val) / 8 = q.val; have := o.isLt; omega)
theorem laneUnit_lane (q : Fin 32) (o : Fin 8) : laneUnit (lane q o) = o :=
  Fin.ext (by show (q.val * 8 + o.val) % 8 = o.val; have := o.isLt; omega)

/-- The result of the region, viewed as [8, 64, 32, 32, 8], when the region was handed the flattened input and the two
    halves of the first weight matrix, is the pairwise perceptron of the arguments. -/
theorem viewed_eq (a0 : FVec Ideal S8x64x32x16 .f32) (a1 : FVec Ideal S32x64 .f32) (a2 : FVec Ideal S64 .f32)
    (a3 : FVec Ideal S64x64 .f32) (a4 : FVec Ideal S64 .f32) (a5 : FVec Ideal S64x8 .f32) (a6 : FVec Ideal S8 .f32)
    (h0 : S8x64x32x16.ShapeCasts S512x32x16) (h1 : S32x64.Slices ![0, 0] S16x64) (h2 : S32x64.Slices ![16, 0] S16x64)
    (h3 : S512x32x256.ShapeCasts S8x64x32x32x8) :
    shapeCast S8x64x32x32x8
        (GK (shapeCast S512x32x16 a0 h0) (extractStridedSlice S16x64 ![0, 0] a1 h1) (extractStridedSlice S16x64 ![16, 0] a1 h2)
          a2 a3 a4 a5 a6) h3
      = G a0 a1 a2 a3 a4 a5 a6 := by
  funext i
  obtain ⟨b, l, p, q, o, rfl⟩ : ∃ (b : Fin 8) (l : Fin 64) (p q : Fin 32) (o : Fin 8), i = ix5 b l p q o :=
    ⟨i 0, i 1, i 2, i 3, i 4, eq_ix5 i⟩
  rw [shapeCast_apply _ h3 (ix5 b l p q o) (ix3 (scene b l) p (lane q o)) (by
    rw [Shape.rowMajor_val_three, Shape.rowMajor_val_five]
    show ((b.val * 64 + l.val) * 32 + p.val) * 256 + (q.val * 8 + o.val)
      = (((b.val * 64 + l.val) * 32 + p.val) * 32 + q.val) * 8 + o.val
    omega)]
  have rowOf : ∀ (r : Fin 32) (d : Fin 16), shapeCast S512x32x16 a0 h0 (ix3 (scene b l) r d) = a0 (ix4 b l r d) := fun r d =>
    shapeCast_apply a0 h0 (ix3 (scene b l) r d) (ix4 b l r d) (by
      rw [Shape.rowMajor_val_four, Shape.rowMajor_val_three]
      show ((b.val * 64 + l.val) * 32 + r.val) * 16 + d.val = ((b.val * 64 + l.val) * 32 + r.val) * 16 + d.val
      rfl)
  show pairMlp _ _ _ _ _ _ _ _ _ _ = pairMlp _ _ _ _ _ _ _ _ _ _
  refine pairMlp_congr (fun d j => ?_) (fun d j => ?_) (fun _ => rfl) (fun _ _ => rfl) (fun _ => rfl) (fun _ _ => rfl)
    (fun _ => rfl) (fun d => rowOf p d) (fun d => ?_) (laneUnit_lane q o)
  · exact extractStridedSlice_apply _ a1 h1 (ix2 d j) (ix2 (lo d) j) (fun a => by
      match a with
      | ⟨0, _⟩ => show d.val = 0 + d.val; omega
      | ⟨1, _⟩ => show j.val = 0 + j.val; omega)
  · exact extractStridedSlice_apply _ a1 h2 (ix2 d j) (ix2 (hi d) j) (fun a => by
      match a with
      | ⟨0, _⟩ => show 16 + d.val = 16 + d.val; rfl
      | ⟨1, _⟩ => show j.val = 0 + j.val; omega)
  · show shapeCast S512x32x16 a0 h0 (ix3 (scene b l) (laneAgent (lane q o)) d) = a0 (ix4 b l q d)
    rw [laneAgent_lane]
    exact rowOf q d

end Cert.PairMlp.Blocks

end
-- ==== Proof.KernelRun.lean ====
/-
  The kernel program's run, with its result named.

  Around the region the host flattens the input and cuts the first weight matrix in two before it, and views the
  result after it. The region leaves its result array at one function of the arrays it found; the view after it is
  then the pairwise perceptron of the program's arguments, and the arguments end as launched.
-/
import proofs.«134677_j45938970198104_2_alg».proof.Proof.KernelFinal
import proofs.«134677_j45938970198104_2_alg».proof.Proof.KernelWhole
import Idealize.ShloMosaic.Lib.StableHlo.Run

noncomputable section

namespace Cert.PairMlp.Blocks

open Cert.KernelIdeal Cert.KernelIdeal.Gen Idealize.ShloMosaic Idealize.ShloMosaic.TcCoe Idealize.SL.Sem
open Idealize.ShloMosaic.Pipeline (Dat)
open Idealize.ShloMosaic.ValueIdx Cert.PairMlp Cert.PairMlp.Body

variable (m : (ℓ : Loc nD τ sig) → Buf (Elt Ideal) ℓ) (ρ : Dev nD → PrngReg)

/-- The flattened input, as the region finds it. -/
theorem V_v0 (c : Dev nD) : (V m c main_v0 : S512x32x16.Idx → Elt Ideal .f32)
    = shapeCast S512x32x16 (m ((c : Thread nD τ).loc main_arg0)) shapeCasts_S8x64x32x16_S512x32x16 := by
  show StableHlo.after hostOps0 (fun b => m (c, b)) (Proc.devRef .tc main_v0) = _
  after_results
  rfl

/-- The upper half of the first weight matrix, as the region finds it. -/
theorem V_v1 (c : Dev nD) : (V m c main_v1 : S16x64.Idx → Elt Ideal .f32)
    = extractStridedSlice S16x64 ![0, 0] (m ((c : Thread nD τ).loc main_arg1)) slices_S32x64_S16x64_0_0 := by
  show StableHlo.after hostOps0 (fun b => m (c, b)) (Proc.devRef .tc main_v1) = _
  after_results

/-- The lower half. -/
theorem V_v2 (c : Dev nD) : (V m c main_v2 : S16x64.Idx → Elt Ideal .f32)
    = extractStridedSlice S16x64 ![16, 0] (m ((c : Thread nD τ).loc main_arg1)) slices_S32x64_S16x64_16_0 := by
  show StableHlo.after hostOps0 (fun b => m (c, b)) (Proc.devRef .tc main_v2) = _
  after_results

/-- The line after the region views the region's result array. -/
theorem tail_eq (c : Dev nD) (Z : FVec Ideal S512x32x256 .f32) (hZ : (dats m 0 c).arrAt 8 cfg0.N = Z) :
    Pipeline.afterTail₀ cfgs (dats m) 0 (V0 m) [hostOps1] c main_v4
      = shapeCast S8x64x32x32x8 Z shapeCasts_S512x32x256_S8x64x32x32x8 := by
  unfold Pipeline.afterTail₀
  show StableHlo.after hostOps1 _ (Proc.devRef .tc main_v4) = _
  after_results
  have e := Pipeline.withArrays_arr spec0 launch0.win.arr_inj c (V0 m c) (fun w => (dats m 0 c).arrAt w cfg0.N) 8
  funext i
  show shapeCast S8x64x32x32x8 (Pipeline.withArrays spec0 c (V0 m c) (fun w => (dats m 0 c).arrAt w cfg0.N)
    (Proc.devRef .tc (Pipeline.arrRef spec0 8))) shapeCasts_S512x32x256_S8x64x32x32x8 i = _
  rw [e, hZ]

/-- The program's result, as a function of its arguments. -/
abbrev result (c : Dev nD) : FVec Ideal S8x64x32x32x8 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The view after the region is the pairwise perceptron of the arguments. -/
theorem result_eq (c : Dev nD) :
    Pipeline.afterTail₀ cfgs (dats m) 0 (V0 m) [hostOps1] c main_v4 = result m c := by
  rw [tail_eq m c (found m c) (final m c)]
  show shapeCast S8x64x32x32x8 (GK (V m c main_v0) (V m c main_v1) (V m c main_v2) (V m c main_arg2) (V m c main_arg3)
    (V m c main_arg4) (V m c main_arg5) (V m c main_arg6)) shapeCasts_S512x32x256_S8x64x32x32x8 = _
  rw [V_v0, V_v1, V_v2, V_main_arg2, V_main_arg3, V_main_arg4, V_main_arg5, V_main_arg6]
  exact viewed_eq _ _ _ _ _ _ _ _ _ _ _

/-- THE RUN: every weakly fair execution terminates with the result at the pairwise perceptron of the arguments and the
    arguments as launched. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c)))⟩)
    (run_main m ρ)

end Cert.PairMlp.Blocks

end
-- ==== Proof.lean ====
/-
  The certificate's claims.

  Both programs compute, for every ordered pair of agents of a scene, a three-layer perceptron of the two agents'
  feature rows laid side by side. The reference forms the 32-vector and multiplies by the whole first weight matrix;
  the kernel multiplies the rows by the matrix's upper and lower halves separately and adds — the same sum of 32
  products, regrouped, which is associativity of addition and holds on the extended reals with no finiteness. The rest
  (bias, rectifier, two more dense layers, the logistic spelt out on the host) is the same function entry by entry, and
  the kernel's blocks and the host's reshapes only move entries. So the precondition is never opened.
  The three frames are the generated ones (the reference's is its generated run with the result dropped), and the
  idealization's ledger is empty.
-/
import proofs.«134677_j45938970198104_2_alg».proof.Defs
import proofs.«134677_j45938970198104_2_alg».proof.Proof.Gen.Kernel
import proofs.«134677_j45938970198104_2_alg».proof.Proof.Gen.Kernel.Skeleton
import proofs.«134677_j45938970198104_2_alg».proof.Proof.Gen.Kernel.Launch
import proofs.«134677_j45938970198104_2_alg».proof.Proof.Gen.Kernel.Points
import proofs.«134677_j45938970198104_2_alg».proof.Proof.Gen.Kernel.Frame
import proofs.«134677_j45938970198104_2_alg».proof.Proof.Gen.KernelIdeal
import proofs.«134677_j45938970198104_2_alg».proof.Proof.Gen.KernelIdeal.Skeleton
import proofs.«134677_j45938970198104_2_alg».proof.Proof.Gen.KernelIdeal.Launch
import proofs.«134677_j45938970198104_2_alg».proof.Proof.Gen.KernelIdeal.Points
import proofs.«134677_j45938970198104_2_alg».proof.Proof.Gen.KernelIdeal.Frame
import proofs.«134677_j45938970198104_2_alg».proof.Proof.Gen.ReferenceIdeal
import proofs.«134677_j45938970198104_2_alg».proof.Proof.Gen.Pre_finite_inputs
import proofs.«134677_j45938970198104_2_alg».proof.Proof.Gen.ReferenceIdeal.Run
import proofs.«134677_j45938970198104_2_alg».proof.Proof.Gen.ReferenceIdeal.Read
import proofs.«134677_j45938970198104_2_alg».proof.Proof.RefValue
import proofs.«134677_j45938970198104_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the pairwise perceptron of the arguments. -/
theorem algebraic : Cert.algebraic_KernelIdeal_ReferenceIdeal := by
  intro m ρ m' ρ' _ hagree
  refine ⟨fun c => Cert.PairMlp.Blocks.result m c, Cert.PairMlp.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v24_eq, Cert.PairMlp.Ref.result_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
